-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128x128 .f32) (main_arg6 : FVec F S128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S5000x128 : Shape := ⟨2, ![5000, 128]⟩
abbrev S850000x128 : Shape := ⟨2, ![850000, 128]⟩

abbrev nBuf : Space → Nat
  | .hbm => 88
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S50000x128, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x1, .f32⟩
  | .hbm, ⟨63, _⟩ => ⟨S850000x128, .f32⟩
  | .hbm, ⟨64, _⟩ => ⟨S850000x128, .f32⟩
  | .hbm, ⟨65, _⟩ => ⟨S_, .f32⟩
  | .hbm, ⟨66, _⟩ => ⟨S50000x128, .f32⟩
  | .hbm, ⟨67, _⟩ => ⟨S850000x1, .i32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x128, .f32⟩
  | .hbm, ⟨80, _⟩ => ⟨S850000x1, .f32⟩
  | .hbm, ⟨81, _⟩ => ⟨S850000x128, .f32⟩
  | .hbm, ⟨82, _⟩ => ⟨S850000x128, .f32⟩
  | .hbm, ⟨83, _⟩ => ⟨S_, .f32⟩
  | .hbm, ⟨84, _⟩ => ⟨S50000x128, .f32⟩
  | .hbm, ⟨85, _⟩ => ⟨S850000x1, .i32⟩
  | .hbm, ⟨86, _⟩ => ⟨S50000x128, .f32⟩
  | .hbm, ⟨87, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v33) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 142
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128x128, .f32⟩
  | 6 => ⟨S128, .f32⟩
  | 7 => ⟨S128, .f32⟩
  | 8 => ⟨S50000x128, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x128, .f32⟩
  | 58 => ⟨S850000x1, .f32⟩
  | 59 => ⟨S850000x128, .f32⟩
  | 60 => ⟨S850000x128, .f32⟩
  | 61 => ⟨S_, .f32⟩
  | 62 => ⟨S50000x128, .f32⟩
  | 63 => ⟨S850000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .i1⟩
  | 71 => ⟨S1x128, .f32⟩
  | 72 => ⟨S50000x128, .f32⟩
  | 73 => ⟨S50000x128, .f32⟩
  | 74 => ⟨S50000x128, .f32⟩
  | 75 => ⟨S50000x128, .f32⟩
  | 76 => ⟨S50000, .i32⟩
  | 77 => ⟨S1x800000, .i32⟩
  | 78 => ⟨S800000, .i32⟩
  | 79 => ⟨S850000, .i32⟩
  | 80 => ⟨S1x800000, .i32⟩
  | 81 => ⟨S800000, .i32⟩
  | 82 => ⟨S850000, .i32⟩
  | 83 => ⟨S_, .f32⟩
  | 84 => ⟨S850000, .f32⟩
  | 85 => ⟨S_, .f32⟩
  | 86 => ⟨S50000, .f32⟩
  | 87 => ⟨S850000x1, .i32⟩
  | 88 => ⟨S50000, .f32⟩
  | 89 => ⟨S_, .f32⟩
  | 90 => ⟨S50000, .f32⟩
  | 91 => ⟨S50000, .i1⟩
  | 92 => ⟨S50000, .f32⟩
  | 93 => ⟨S_, .f32⟩
  | 94 => ⟨S_, .f32⟩
  | 95 => ⟨S50000, .f32⟩
  | 96 => ⟨S50000, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000, .f32⟩
  | 115 => ⟨S850000, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000x128, .f32⟩
  | 125 => ⟨S850000x1, .f32⟩
  | 126 => ⟨S850000x128, .f32⟩
  | 127 => ⟨S850000x128, .f32⟩
  | _ => ⟨S50000x128, .f32⟩

abbrev hbmTy0_1 (i : Nat) : BufTy := match i % 128 with
  | 0 => ⟨S_, .f32⟩
  | 1 => ⟨S50000x128, .f32⟩
  | 2 => ⟨S850000x1, .i32⟩
  | 3 => ⟨S50000x128, .f32⟩
  | 4 => ⟨S1x128, .f32⟩
  | 5 => ⟨S50000x128, .f32⟩
  | 6 => ⟨S50000x128, .f32⟩
  | 7 => ⟨S_, .f32⟩
  | 8 => ⟨S50000x128, .f32⟩
  | 9 => ⟨S50000x128, .i1⟩
  | 10 => ⟨S1x128, .f32⟩
  | 11 => ⟨S50000x128, .f32⟩
  | 12 => ⟨S50000x128, .f32⟩
  | 13 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_13 : Ref sig .tc := ⟨.hbm, 93, rfl⟩
abbrev main_call2_v0 : Ref sig .tc := ⟨.hbm, 94, rfl⟩
abbrev main_call2_v1 : Ref sig .tc := ⟨.hbm, 95, rfl⟩
abbrev main_v68 : Ref sig .tc := ⟨.hbm, 96, rfl⟩
abbrev main_c_14 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_16 : Ref sig .tc := ⟨.hbm, 106, rfl⟩
abbrev main_v76 : Ref sig .tc := ⟨.hbm, 107, rfl⟩
abbrev main_v77 : Ref sig .tc := ⟨.hbm, 108, rfl⟩
abbrev main_c_17 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_18 : Ref sig .tc := ⟨.hbm, 116, rfl⟩
abbrev main_v84 : Ref sig .tc := ⟨.hbm, 117, rfl⟩
abbrev main_v85 : Ref sig .tc := ⟨.hbm, 118, rfl⟩
abbrev main_c_19 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_20 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_21 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
import proofs.«156466_j11802570130223_1_alg».proof.Proof.Gen.KernelIdeal.Frame

/-! # The kernel program's run, with its result named

The program is nine segments: three stretches of host operations, the first matrix product, the
neighbour aggregation on the host, the first bias-and-slope pass, the second matrix product, the second
aggregation, the second bias-and-slope pass. The buffer contents at each boundary are a fold from the
launch memory; at the end every buffer that is not a staging buffer holds the last boundary's contents.
Here that final fact is read at the RESULT buffer as well as at the arguments: every weakly fair execution
terminates with the result holding the last boundary's contents there, and the arguments unchanged. -/

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, without a fault, with the result buffer at the last boundary's
    contents and each argument as launched. -/
theorem run : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.ValueRun

end
-- ==== Proof.Spec.lean ====
import proofs.«156466_j11802570130223_1_alg».proof.ReferenceIdeal
import Idealize.ShloMosaic.PureOps.Ideal

/-! # Two graph-convolution layers as one function of the argument arrays

A layer takes node features x (50000 × 128), the edge list (2 × 800000 node numbers), a weight matrix W,
a bias b and a slope a (one entry per feature). With the 50000 self loops appended to the edge list
(850000 edge slots, sources `rows`, targets `cols`):

* `deg` counts, per node, the edge slots that end there; `dinv` is deg^(-1/2) where the count is positive and
  0 elsewhere; an edge slot's weight `norm` is dinv(source) · dinv(target);
* `agg h` sends, along every edge slot, row `source` of h scaled by the slot's weight, and adds what arrives
  at each target node;
* `biasSlope s b a` adds the bias to every row and keeps an entry t where t ≥ 0, replacing it by a · t
  elsewhere;
* a layer is `biasSlope (agg (x · W)) b a`, and the network is two layers on the same edge list.

A node number below zero counts from the end (`wrap`). Every step is the host's own operation, so these
are whole-array functions that hold at any value type. -/

noncomputable section

namespace Cert.Gcn

open Cert.ReferenceIdeal Cert.ReferenceIdeal.Facts₀ Idealize.ShloMosaic

variable {F : FTy → Type} [FloatOps F] [Facts₀]

/-- The edge slots' source nodes: row 0 of the edge list, then every node once (its self loop). -/
def rows (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The edge slots' target nodes: row 1 of the edge list, then every node once. -/
def cols (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A node number below zero counts from the end: 50000 is added to it. -/
def wrap (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- Per node, the number of edge slots that end there (a sum of ones). -/
def deg (cl : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 cl) (broadcastInDim S850000 ![] bcast_S_S850000 (constant S_ .f32 0x3F800000#32))

/-- Which nodes have a positive count. -/
def posDeg (cl : (⟨S850000, .i32⟩ : BufTy).Contents (Elt F)) : (⟨S50000, .i1⟩ : BufTy).Contents (Elt F) :=
  cmpf .ogt (deg (F := F) cl) (broadcastInDim S50000 ![] bcast_S_S50000 (constant S_ .f32 0x00000000#32))

/-- From the mask, a vector r and a scalar z: r where the mask holds, z elsewhere. -/
def pick (p : (⟨S50000, .i1⟩ : BufTy).Contents (Elt F)) (r : (⟨S50000, .f32⟩ : BufTy).Contents (Elt F))
    (z : (⟨S_, .f32⟩ : BufTy).Contents (Elt F)) : (⟨S50000, .f32⟩ : BufTy).Contents (Elt F) :=
  select p r (broadcastInDim S50000 ![] bcast_S_S50000 (id z))

/-- deg^(-1/2) where the count is positive, 0 elsewhere. -/
def dinv (cl : (⟨S850000, .i32⟩ : BufTy).Contents (Elt F)) : (⟨S50000, .f32⟩ : BufTy).Contents (Elt F) :=
  pick (posDeg cl) (Host.rsqrt (deg cl)) (constant S_ .f32 0x00000000#32)

/-- From a per-node factor d, an edge slot's weight: d at its source times d at its target. -/
def normOf (d : (⟨S50000, .f32⟩ : BufTy).Contents (Elt F)) (rw cl : (⟨S850000, .i32⟩ : BufTy).Contents (Elt F)) :
    (⟨S850000, .f32⟩ : BufTy).Contents (Elt F) :=
  mulf (Host.gather gather_S50000_S850000x1_S850000_n_0_n_n_0_1_1 d (broadcastInDim S850000x1 ![0] bcast_S850000_S850000x1_0 (wrap rw)))
    (Host.gather gather_S50000_S850000x1_S850000_n_0_n_n_0_1_1 d (broadcastInDim S850000x1 ![0] bcast_S850000_S850000x1_0 (wrap cl)))

/-- An edge slot's weight: dinv at its source times dinv at its target. -/
def norm (rw cl : (⟨S850000, .i32⟩ : BufTy).Contents (Elt F)) : (⟨S850000, .f32⟩ : BufTy).Contents (Elt F) :=
  normOf (dinv cl) rw cl

/-- Along every edge slot, row `source` of `h` scaled by the slot's weight; summed at each target node. -/
def agg (h : (⟨S50000x128, .f32⟩ : BufTy).Contents (Elt F)) (rw cl : (⟨S850000, .i32⟩ : BufTy).Contents (Elt F))
    (nm : (⟨S850000, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 cl)
    (mulf (Host.gather gather_S50000x128_S850000x1_S850000x128_1_0_n_n_0_1_1128 h (broadcastInDim S850000x1 ![0] bcast_S850000_S850000x1_0 (wrap rw)))
      (broadcastInDim S850000x128 ![0, 1] bcast_S850000x1_S850000x128_0_1 (broadcastInDim S850000x1 ![0] bcast_S850000_S850000x1_0 nm)))

/-- A feature vector spread over every node's row. -/
def spread (b : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 b)

/-- Add the bias to every row; keep an entry t where t ≥ 0, put a · t elsewhere. -/
def biasSlope (s : (⟨S50000x128, .f32⟩ : BufTy).Contents (Elt F)) (b a : (⟨S128, .f32⟩ : BufTy).Contents (Elt F)) :
    (⟨S50000x128, .f32⟩ : BufTy).Contents (Elt F) :=
  select (cmpf .oge (addf s (spread b)) (broadcastInDim S50000x128 ![] bcast_S_S50000x128 (constant S_ .f32 0x00000000#32)))
    (addf s (spread b)) (mulf (spread a) (addf s (spread b)))

/-- The features times the weights: row i, column j is the sum over k of x(i, k) · W(k, j). -/
def times (x : (⟨S50000x128, .f32⟩ : BufTy).Contents (Elt F)) (W : (⟨S128x128, .f32⟩ : BufTy).Contents (Elt F)) :
    (⟨S50000x128, .f32⟩ : BufTy).Contents (Elt F) :=
  Host.dotGeneral dot_S50000x128_S128x128_S50000x128_1_0_0_1_n_n none x W

/-- One layer. -/
def layer (x : (⟨S50000x128, .f32⟩ : BufTy).Contents (Elt F)) (ei : (⟨S2x800000, .i32⟩ : BufTy).Contents (Elt F))
    (W : (⟨S128x128, .f32⟩ : BufTy).Contents (Elt F)) (b a : (⟨S128, .f32⟩ : BufTy).Contents (Elt F)) :
    (⟨S50000x128, .f32⟩ : BufTy).Contents (Elt F) :=
  biasSlope (agg (times x W) (rows ei) (cols ei) (norm (rows ei) (cols ei))) b a

/-- The two-layer network. -/
def net (x : (⟨S50000x128, .f32⟩ : BufTy).Contents (Elt F)) (ei : (⟨S2x800000, .i32⟩ : BufTy).Contents (Elt F))
    (W1 : (⟨S128x128, .f32⟩ : BufTy).Contents (Elt F)) (b1 a1 : (⟨S128, .f32⟩ : BufTy).Contents (Elt F))
    (W2 : (⟨S128x128, .f32⟩ : BufTy).Contents (Elt F)) (b2 a2 : (⟨S128, .f32⟩ : BufTy).Contents (Elt F)) :
    (⟨S50000x128, .f32⟩ : BufTy).Contents (Elt F) :=
  layer (layer x ei W1 b1 a1) ei W2 b2 a2

end Cert.Gcn

end
-- ==== Proof.HostStretches.lean ====
import proofs.«156466_j11802570130223_1_alg».proof.Proof.Gen.KernelIdeal.Launch
import proofs.«156466_j11802570130223_1_alg».proof.Proof.Gen.ReferenceIdeal
import proofs.«156466_j11802570130223_1_alg».proof.Proof.Spec
import Idealize.ShloMosaic.Lib.StableHlo.Run

/-! # The kernel program's host stretches, read

Between its four regions the kernel program runs plain host operations. From ANY buffer contents, each stretch
leaves in the buffers named here the specification's functions of what it read:
the first stretch the edge slots' sources and targets, the mask of nodes with a positive count, the count's inverse
square root, and a zero; the second (a selection) the per-node factor; the third the edge slots' weights and the bias
and slope vectors as one-row matrices; the stretch after each product the aggregation of that product. The kernel
program's own operation records and the reference's are the same lists of axes, so the terms agree as they stand. -/

set_option maxRecDepth 16384

noncomputable section

namespace Cert.Gcn.Host

open Cert.KernelIdeal Cert.KernelIdeal.Gen
open Idealize.ShloMosaic Idealize.ShloMosaic.TcCoe Idealize.SL.Sem Idealize.ShloMosaic.StableHlo

variable (Wp : Valuation τ sig (Elt Ideal))

/-- The edge slots' sources. -/
theorem s0_rows : after (hostOps0 (F := Ideal)) Wp (Proc.devRef .tc main_v3) = Cert.Gcn.rows (F := Ideal) (Wp (Proc.devRef .tc main_arg1)) := by
  after_results
  rfl

/-- The edge slots' targets. -/
theorem s0_cols : after (hostOps0 (F := Ideal)) Wp (Proc.devRef .tc main_v6) = Cert.Gcn.cols (F := Ideal) (Wp (Proc.devRef .tc main_arg1)) := by
  after_results
  rfl

set_option maxHeartbeats 4000000 in
/-- The mask of the nodes some edge slot ends at. -/
theorem s0_pos : after (hostOps0 (F := Ideal)) Wp (Proc.devRef .tc main_v12)
    = Cert.Gcn.posDeg (F := Ideal) (Cert.Gcn.cols (F := Ideal) (Wp (Proc.devRef .tc main_arg1))) := by
  after_results_simp
  rfl

set_option maxHeartbeats 4000000 in
/-- The inverse square root of the per-node count. -/
theorem s0_rsq : after (hostOps0 (F := Ideal)) Wp (Proc.devRef .tc main_v13)
    = (Host.rsqrt (F := Ideal) (s := Cert.ReferenceIdeal.S50000) (φ := .f32) (Cert.Gcn.deg (F := Ideal) (Cert.Gcn.cols (F := Ideal) (Wp (Proc.devRef .tc main_arg1)))) :
        (⟨Cert.ReferenceIdeal.S50000, .f32⟩ : BufTy).Contents (Elt Ideal)) := by
  after_results_simp
  rfl

/-- A zero. -/
theorem s0_zero : after (hostOps0 (F := Ideal)) Wp (Proc.devRef .tc main_cst_2) = constant (F := Ideal) Cert.ReferenceIdeal.S_ .f32 0x00000000#32 := by
  after_results

/-- The selection: the second operand where the mask holds, the scalar elsewhere. -/
theorem s1_pick : after (hostOps0_1 (F := Ideal)) Wp (Proc.devRef .tc main_v14)
    = Cert.Gcn.pick (F := Ideal) (Wp (Proc.devRef .tc main_v12)) (Wp (Proc.devRef .tc main_v13)) (Wp (Proc.devRef .tc main_cst_2)) := by
  after_results
  rfl

set_option maxHeartbeats 4000000 in
/-- The edge slots' weights, from the per-node factor and the slots' ends. -/
theorem s2_norm : after (hostOps0_2 (F := Ideal)) Wp (Proc.devRef .tc main_v29)
    = Cert.Gcn.normOf (F := Ideal) (Wp (Proc.devRef .tc main_v14)) (Wp (Proc.devRef .tc main_v3)) (Wp (Proc.devRef .tc main_v6)) := by
  after_results_simp
  rfl

/-- The first bias as a one-row matrix. -/
theorem s2_b1 : after (hostOps0_2 (F := Ideal)) Wp (Proc.devRef .tc main_v30)
    = shapeCast Cert.KernelIdeal.S1x128 (Wp (Proc.devRef .tc main_arg3)) Cert.KernelIdeal.Facts₀.shapeCasts_S128_S1x128 := by
  after_results
  rfl

/-- The first slope as a one-row matrix. -/
theorem s2_a1 : after (hostOps0_2 (F := Ideal)) Wp (Proc.devRef .tc main_v31)
    = shapeCast Cert.KernelIdeal.S1x128 (Wp (Proc.devRef .tc main_arg4)) Cert.KernelIdeal.Facts₀.shapeCasts_S128_S1x128 := by
  after_results
  rfl

/-- The second bias as a one-row matrix. -/
theorem s2_b2 : after (hostOps0_2 (F := Ideal)) Wp (Proc.devRef .tc main_v32)
    = shapeCast Cert.KernelIdeal.S1x128 (Wp (Proc.devRef .tc main_arg6)) Cert.KernelIdeal.Facts₀.shapeCasts_S128_S1x128 := by
  after_results
  rfl

/-- The second slope as a one-row matrix. -/
theorem s2_a2 : after (hostOps0_2 (F := Ideal)) Wp (Proc.devRef .tc main_v33)
    = shapeCast Cert.KernelIdeal.S1x128 (Wp (Proc.devRef .tc main_arg7)) Cert.KernelIdeal.Facts₀.shapeCasts_S128_S1x128 := by
  after_results
  rfl

set_option maxHeartbeats 4000000 in
/-- The aggregation of the first product. -/
theorem s3_agg : after (hostOps1 (F := Ideal)) Wp (Proc.devRef .tc main_v47)
    = Cert.Gcn.agg (F := Ideal) (Wp (Proc.devRef .tc main_v34)) (Wp (Proc.devRef .tc main_v3)) (Wp (Proc.devRef .tc main_v6)) (Wp (Proc.devRef .tc main_v29)) := by
  after_results_simp
  rfl

set_option maxHeartbeats 4000000 in
/-- The aggregation of the second product. -/
theorem s4_agg : after (hostOps3 (F := Ideal)) Wp (Proc.devRef .tc main_v62)
    = Cert.Gcn.agg (F := Ideal) (Wp (Proc.devRef .tc main_v49)) (Wp (Proc.devRef .tc main_v3)) (Wp (Proc.devRef .tc main_v6)) (Wp (Proc.devRef .tc main_v29)) := by
  after_results_simp
  rfl

end Cert.Gcn.Host

end
-- ==== Proof.LibPlainMatmul.lean ====
import Idealize.ShloMosaic.Lib.ValueIdx
import Idealize.ShloMosaic.Lib.StackMember
import Idealize.ShloMosaic.PureOps.Ideal.Laws

/-! # A plain matrix product into zero, read at an index

For an m×k matrix A and a k×n matrix B, the product that contracts A's second axis with B's first, with no batch
axis, has at row a and column b the entry  ∑ c, A(a, c) · B(c, b).  At the ideal values this holds of the matrix
unit's product accumulated into the zero splat exactly as it holds of the host's product: the accumulator
contributes the extended real 0, and neither rounds nor orders the sum. The host's form is the library's
(`StackMember.dotGeneral_plain_apply`); the matrix unit's form is derived from it here, since both read at an index
as the same sum over the contraction index. -/

noncomputable section

namespace Cert.LibPlainMatmul

open Idealize.ShloMosaic Idealize.ShloMosaic.ValueIdx

/-- The matrix unit's plain product into the zero splat, at row `a` and column `b`, is the sum over the contracted
    coordinate of the products of the entries. At the ideal values. -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

/-- The host's plain product at row `a` and column `b`, restated beside it. -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  StackMember.dotGeneral_plain_apply prec A B a b

end Cert.LibPlainMatmul

end
-- ==== Proof.MatmulPoint.lean ====
import proofs.«156466_j11802570130223_1_alg».proof.Proof.Gen.KernelIdeal.Skeleton
import proofs.«156466_j11802570130223_1_alg».proof.Proof.Spec
import proofs.«156466_j11802570130223_1_alg».proof.Proof.LibPlainMatmul
import Idealize.ShloMosaic.Lib.Pipeline.Value
import Idealize.ShloMosaic.Lib.ValueIdx

/-! # The matrix products at an index

The specification's product (the host's, 50000 × 128 by 128 × 128) and the kernels' product of one block of
5000 rows (the matrix unit's, into a zero accumulator, its operands' change of float format the identity at
the ideal values) both have, at row i and column j, the entry  ∑ k, x(i, k) · W(k, j). -/

noncomputable section

namespace Cert.Gcn

open Idealize.ShloMosaic Idealize.ShloMosaic.ValueIdx

/-- The specification's product at an index: the sum over the contracted coordinate. -/
theorem times_apply [Cert.ReferenceIdeal.Facts₀] (X : (⟨Cert.ReferenceIdeal.S50000x128, .f32⟩ : BufTy).Contents (Elt Ideal))
    (Wt : (⟨Cert.ReferenceIdeal.S128x128, .f32⟩ : BufTy).Contents (Elt Ideal)) (i : Cert.ReferenceIdeal.S50000x128.Idx) :
    times (F := Ideal) X Wt i = ∑ k : Fin 128, X (ix2 (i 0) k) * Wt (ix2 k (i 1)) := by
  obtain ⟨p, q, rfl⟩ : ∃ (p : Fin 50000) (q : Fin 128), i = ix2 p q := ⟨i 0, i 1, eq_ix2 i⟩
  exact Cert.LibPlainMatmul.dotGeneral_plain_apply none X Wt p q

/-- The first product kernel's stored block at an index: the same sum over the block's rows. -/
theorem pay0_apply (x0 : Vec Ideal Cert.KernelIdeal.S5000x128 .f32) (x1 : Vec Ideal Cert.KernelIdeal.S128x128 .f32)
    (j : Cert.KernelIdeal.S5000x128.Idx) :
    Cert.KernelIdeal.Gen.k0_pay1 (F := Ideal) x0 x1 j = ∑ k : Fin 128, x0 (ix2 (j 0) k) * x1 (ix2 k (j 1)) := by
  obtain ⟨p, q, rfl⟩ : ∃ (p : Fin 5000) (q : Fin 128), j = ix2 p q := ⟨j 0, j 1, eq_ix2 j⟩
  exact Cert.LibPlainMatmul.matmul_plain_apply none x0 x1 p q

/-- The second product kernel first re-reads its block at the block's own shape, which changes nothing. -/
theorem pay2_eq (x0 : Vec Ideal Cert.KernelIdeal.S5000x128 .f32) (x1 : Vec Ideal Cert.KernelIdeal.S128x128 .f32) :
    Cert.KernelIdeal.Gen.k2_pay1 (F := Ideal) x0 x1 = Cert.KernelIdeal.Gen.k0_pay1 (F := Ideal) x0 x1 := by
  unfold Cert.KernelIdeal.Gen.k2_pay1 Cert.KernelIdeal.Gen.k0_pay1
  simp only [shapeCast_self]

/-- So its stored block at an index is the same sum. -/
theorem pay2_apply (x0 : Vec Ideal Cert.KernelIdeal.S5000x128 .f32) (x1 : Vec Ideal Cert.KernelIdeal.S128x128 .f32)
    (j : Cert.KernelIdeal.S5000x128.Idx) :
    Cert.KernelIdeal.Gen.k2_pay1 (F := Ideal) x0 x1 j = ∑ k : Fin 128, x0 (ix2 (j 0) k) * x1 (ix2 k (j 1)) := by
  rw [pay2_eq]; exact pay0_apply x0 x1 j

end Cert.Gcn

end
-- ==== Proof.Product0.lean ====
import proofs.«156466_j11802570130223_1_alg».proof.Proof.Gen.KernelIdeal.Frame
import proofs.«156466_j11802570130223_1_alg».proof.Proof.MatmulPoint
import proofs.«156466_j11802570130223_1_alg».proof.Proof.Gen.ReferenceIdeal
import Idealize.ShloMosaic.Lib.Pipeline.Value

/-! # The first product region writes the whole product

The region's grid has ten points; point t reads rows 5000·t … 5000·t + 4999 of the left matrix and the whole
right matrix, and writes the same rows of the output. Its stored block at (p, q) is ∑ k, left(5000·t + p, k) ·
right(k, q): block t of the whole product. The ten blocks tile the output, so after the region the output
array IS the product of the two arrays as the region found them. -/

set_option maxRecDepth 16384

noncomputable section

namespace Cert.Gcn.Product0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the left operand's block moves with the output's along the rows, the right operand's
    stays, nothing moves along the columns. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row blocks is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point t writes back is block t of the product of the two arrays. -/
theorem flushed (c : Dev nD) (t : Fin cfg0.N) :
    (dat0 V c).flushed 2 t = ((cfg0.win 2).blk t).view.read (Elt Ideal) (times (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (iblk0 V c 0 t) (iblk0 V c 1 t) j = times (F := Ideal) (V c main_arg0) (V c main_arg2) (((cfg0.win 2).blk t).view.emb j)
  refine (pay0_apply _ _ j).trans ?_
  refine .trans ?_ (times_apply _ _ _).symm
  refine Finset.sum_congr rfl fun k _ => ?_
  have hA : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hB : iblk0 V c 1 t (ix2 k (j 1)) = V c main_arg2 (ix2 k ((((cfg0.win 2).blk t).view.emb j) 1)) := by
    show V c main_arg2 (((cfg0.win 1).blk t).view.emb (ix2 k (j 1))) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hA, hB]

/-- An index of the output is in point t's block iff each coordinate is in the block's range. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v34).slice (win0_2.rect t)).set ↔ _
  rw [View.set_slice_whole, Rect.mem_set_unit]
  exact Iff.rfl

/-- Row r of the output is in the block of the point whose row block is r / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region its output array is the product of the two arrays it found. -/
theorem final (c : Dev nD) : (dat0 V c).arrAt 2 cfg0.N = times (F := Ideal) (V c main_arg0) (V c main_arg2) :=
  (dat0 V c).arrAt_eq_of_cover 2 _ (fun t _ => flushed V c t) cover

end Cert.Gcn.Product0

end
-- ==== Proof.Product2.lean ====
import proofs.«156466_j11802570130223_1_alg».proof.Proof.Gen.KernelIdeal.Frame
import proofs.«156466_j11802570130223_1_alg».proof.Proof.MatmulPoint
import proofs.«156466_j11802570130223_1_alg».proof.Proof.Gen.ReferenceIdeal
import Idealize.ShloMosaic.Lib.Pipeline.Value

/-! # The second product region writes the whole product

The region's grid has ten points; point t reads rows 5000·t … 5000·t + 4999 of the left matrix and the whole
right matrix, and writes the same rows of the output. Its stored block at (p, q) is ∑ k, left(5000·t + p, k) ·
right(k, q): block t of the whole product. The ten blocks tile the output, so after the region the output
array IS the product of the two arrays as the region found them. -/

set_option maxRecDepth 16384

noncomputable section

namespace Cert.Gcn.Product2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the left operand's block moves with the output's along the rows, the right operand's
    stays, nothing moves along the columns. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every one of the ten row blocks is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- What point t writes back is block t of the product of the two arrays. -/
theorem flushed (c : Dev nD) (t : Fin cfg2.N) :
    (dat2 V c).flushed 2 t = ((cfg2.win 2).blk t).view.read (Elt Ideal) (times (F := Ideal) (V c main_v48) (V c main_arg5)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext j
  show k2_pay1 (iblk2 V c 0 t) (iblk2 V c 1 t) j = times (F := Ideal) (V c main_v48) (V c main_arg5) (((cfg2.win 2).blk t).view.emb j)
  refine (pay2_apply _ _ j).trans ?_
  refine .trans ?_ (times_apply _ _ _).symm
  refine Finset.sum_congr rfl fun k _ => ?_
  have hA : iblk2 V c 0 t (ix2 (j 0) k) = V c main_v48 (ix2 ((((cfg2.win 2).blk t).view.emb j) 0) k) := by
    show V c main_v48 (((cfg2.win 0).blk t).view.emb (ix2 (j 0) k)) = _
    refine congrArg (V c main_v48) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hB : iblk2 V c 1 t (ix2 k (j 1)) = V c main_arg5 (ix2 k ((((cfg2.win 2).blk t).view.emb j) 1)) := by
    show V c main_arg5 (((cfg2.win 1).blk t).view.emb (ix2 k (j 1))) = _
    refine congrArg (V c main_arg5) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [hA, hB]

/-- An index of the output is in point t's block iff each coordinate is in the block's range. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v49).slice (win2_2.rect t)).set ↔ _
  rw [View.set_slice_whole, Rect.mem_set_unit]
  exact Iff.rfl

/-- Row r of the output is in the block of the point whose row block is r / 5000. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region its output array is the product of the two arrays it found. -/
theorem final (c : Dev nD) : (dat2 V c).arrAt 2 cfg2.N = times (F := Ideal) (V c main_v48) (V c main_arg5) :=
  (dat2 V c).arrAt_eq_of_cover 2 _ (fun t _ => flushed V c t) cover

end Cert.Gcn.Product2

end
-- ==== Proof.BiasSlopePoint.lean ====
import proofs.«156466_j11802570130223_1_alg».proof.Proof.Gen.KernelIdeal.Skeleton
import proofs.«156466_j11802570130223_1_alg».proof.Proof.Spec
import Idealize.ShloMosaic.Lib.Pipeline.Value
import Idealize.ShloMosaic.Lib.ValueIdx
import Idealize.ShloMosaic.Lib.ValueLayout

/-! # The bias-and-slope pass at an index

With t = s + b, one entry of the pass is t where t ≥ 0 and a · t elsewhere (`entry`). The specification's
pass has this entry at (i, j) with the bias and slope of feature j; the kernels' stored block has it at
(p, q) with the one-row operands read at (0, q). A bias or slope vector reshaped to one row reads, at (0, q),
the vector at q: so the kernels' pass over whole arrays (`rowPass`) is the specification's. -/

noncomputable section

namespace Cert.Gcn

open Idealize.ShloMosaic Idealize.ShloMosaic.ValueIdx

/-- One entry of the pass: with t = s + b, t where t ≥ 0 and a · t elsewhere. -/
def entry (s b a : Ideal .f32) : Ideal .f32 :=
  Scalar.select (FloatOps.cmpf (F := Ideal) .oge (s + b) (FloatOps.ofBits (F := Ideal) .f32 0x00000000#32)) (s + b) (a * (s + b))

open Cert.ReferenceIdeal Cert.ReferenceIdeal.Facts₀ in
/-- A feature vector spread over the rows reads, at (i, j), the vector at j. -/
theorem spread_apply [Cert.ReferenceIdeal.Facts₀] (b : (⟨S128, .f32⟩ : BufTy).Contents (Elt Ideal)) (i : S50000x128.Idx) :
    spread (F := Ideal) b i = b (ix1 (i 1)) := by
  unfold spread
  rw [broadcastInDim_apply _ bcast_S1x128_S50000x128_0_1 _ i (ix2 (0 : Fin 1) (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  exact broadcastInDim_apply _ bcast_S128_S1x128_1 b (ix2 (0 : Fin 1) (i 1)) (ix1 (i 1)) (fun a => match a with
    | ⟨0, _⟩ => by show (i 1).val = if (128 : Nat) = 1 then 0 else (i 1).val; rw [if_neg (by decide)])

open Cert.ReferenceIdeal Cert.ReferenceIdeal.Facts₀ in
/-- The specification's pass at (i, j): the entry from s(i, j), b(j), a(j). -/
theorem biasSlope_apply [Cert.ReferenceIdeal.Facts₀] (s : (⟨S50000x128, .f32⟩ : BufTy).Contents (Elt Ideal))
    (b a : (⟨S128, .f32⟩ : BufTy).Contents (Elt Ideal)) (i : S50000x128.Idx) :
    biasSlope (F := Ideal) s b a i = entry (s i) (b (ix1 (i 1))) (a (ix1 (i 1))) := by
  unfold biasSlope entry
  rw [select_apply, cmpf_apply, addf_apply, mulf_apply, addf_apply, spread_apply, spread_apply,
    broadcastInDim_apply _ bcast_S_S50000x128 _ i (fun a => a.elim0) (fun a => a.elim0)]
  rfl

/-- The kernels' pass over whole arrays, the bias and the slope given as one-row matrices. -/
def rowPass (s : Cert.ReferenceIdeal.S50000x128.Idx → Ideal .f32) (b2 a2 : Cert.ReferenceIdeal.S1x128.Idx → Ideal .f32) :
    Cert.ReferenceIdeal.S50000x128.Idx → Ideal .f32 :=
  fun i => entry (s i) (b2 (ix2 (0 : Fin 1) (i 1))) (a2 (ix2 (0 : Fin 1) (i 1)))

open Cert.ReferenceIdeal in
/-- With the bias and the slope reshaped to one row, the kernels' pass is the specification's. -/
theorem rowPass_reshape [Cert.ReferenceIdeal.Facts₀] (s : (⟨S50000x128, .f32⟩ : BufTy).Contents (Elt Ideal))
    (b a : (⟨S128, .f32⟩ : BufTy).Contents (Elt Ideal)) (h : S128.ShapeCasts S1x128) :
    rowPass s (shapeCast S1x128 b h) (shapeCast S1x128 a h) = biasSlope (F := Ideal) s b a := by
  funext i
  rw [biasSlope_apply]
  unfold rowPass
  exact congrArg₂ (entry (s i)) (shapeCast_a_1a_apply b h (0 : Fin 1) (i 1)) (shapeCast_a_1a_apply a h (0 : Fin 1) (i 1))

/-- A one-row matrix spread over a block's 5000 rows reads, at (p, q), the row at q. -/
theorem spreadRows_apply (v : Vec Ideal Cert.KernelIdeal.S1x128 .f32)
    (h : Cert.KernelIdeal.S1x128.Broadcasts Cert.KernelIdeal.S5000x128) (j : Cert.KernelIdeal.S5000x128.Idx) :
    broadcastTo Cert.KernelIdeal.S5000x128 v h j = v (ix2 (0 : Fin 1) (j 1)) := by
  obtain ⟨p, q, rfl⟩ : ∃ (p : Fin 5000) (q : Fin 128), j = ix2 p q := ⟨j 0, j 1, eq_ix2 j⟩
  exact broadcastTo_1b_ab_apply v h p q

/-- The first pass kernel's stored block at an index: the entry from the block, the bias row and the slope row. -/
theorem pay1_apply (x0 : Vec Ideal Cert.KernelIdeal.S5000x128 .f32) (x1 x2 : Vec Ideal Cert.KernelIdeal.S1x128 .f32)
    (j : Cert.KernelIdeal.S5000x128.Idx) :
    Cert.KernelIdeal.Gen.k1_pay1 (F := Ideal) x0 x1 x2 j = entry (x0 j) (x1 (ix2 (0 : Fin 1) (j 1))) (x2 (ix2 (0 : Fin 1) (j 1))) := by
  unfold Cert.KernelIdeal.Gen.k1_pay1 entry
  simp only [shapeCast_self]
  rw [select_apply, cmpf_apply, addf_apply, mulf_apply, addf_apply, broadcast_apply, spreadRows_apply, spreadRows_apply]

/-- The second pass kernel's stored block at an index: the same. -/
theorem pay3_apply (x0 : Vec Ideal Cert.KernelIdeal.S5000x128 .f32) (x1 x2 : Vec Ideal Cert.KernelIdeal.S1x128 .f32)
    (j : Cert.KernelIdeal.S5000x128.Idx) :
    Cert.KernelIdeal.Gen.k3_pay1 (F := Ideal) x0 x1 x2 j = entry (x0 j) (x1 (ix2 (0 : Fin 1) (j 1))) (x2 (ix2 (0 : Fin 1) (j 1))) := by
  unfold Cert.KernelIdeal.Gen.k3_pay1 entry
  simp only [shapeCast_self]
  rw [select_apply, cmpf_apply, addf_apply, mulf_apply, addf_apply, broadcast_apply, spreadRows_apply, spreadRows_apply]

end Cert.Gcn

end
-- ==== Proof.Pass1.lean ====
import proofs.«156466_j11802570130223_1_alg».proof.Proof.Gen.KernelIdeal.Frame
import proofs.«156466_j11802570130223_1_alg».proof.Proof.BiasSlopePoint
import Idealize.ShloMosaic.Lib.Pipeline.Value

/-! # The first bias-and-slope region writes the whole pass

The region's grid has ten points; point t reads rows 5000·t … 5000·t + 4999 of the aggregated features and the
whole bias row and slope row, and writes the same rows of the output. Its stored block at (p, q) is the pass's
entry from the aggregated feature at (5000·t + p, q), the bias at (0, q) and the slope at (0, q): block t of the
pass over the whole arrays. The ten blocks tile the output, so after the region the output array IS the pass of
the three arrays as the region found them. -/

set_option maxRecDepth 16384

noncomputable section

namespace Cert.Gcn.Pass1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the aggregated features' block moves with the output's along the rows, the two rows
    stay, nothing moves along the columns. -/
theorem idx_facts : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every one of the ten row blocks is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- What point t writes back is block t of the pass over the three arrays. -/
theorem flushed (c : Dev nD) (t : Fin cfg1.N) :
    (dat1 V c).flushed 3 t = ((cfg1.win 3).blk t).view.read (Elt Ideal) (rowPass (V c main_v47) (V c main_v30) (V c main_v31)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz]
  obtain ⟨e0, e1, e2, e3, e4, e5, e6, e7⟩ := idx_facts t
  funext j
  show k1_pay1 (iblk1 V c 0 t) (iblk1 V c 1 t) (iblk1 V c 2 t) j
    = rowPass (V c main_v47) (V c main_v30) (V c main_v31) (((cfg1.win 3).blk t).view.emb j)
  refine (pay1_apply _ _ _ j).trans ?_
  have h0 : iblk1 V c 0 t j = V c main_v47 (((cfg1.win 3).blk t).view.emb j) := by
    show V c main_v47 (((cfg1.win 0).blk t).view.emb j) = _
    refine congrArg (V c main_v47) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  have h1 : iblk1 V c 1 t (ix2 (0 : Fin 1) (j 1)) = V c main_v30 (ix2 (0 : Fin 1) ((((cfg1.win 3).blk t).view.emb j) 1)) := by
    show V c main_v30 (((cfg1.win 1).blk t).view.emb (ix2 (0 : Fin 1) (j 1))) = _
    refine congrArg (V c main_v30) (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_3.index t (1 : Fin 2) * 128 + 1 * (j 1).val; omega
  have h2 : iblk1 V c 2 t (ix2 (0 : Fin 1) (j 1)) = V c main_v31 (ix2 (0 : Fin 1) ((((cfg1.win 3).blk t).view.emb j) 1)) := by
    show V c main_v31 (((cfg1.win 2).blk t).view.emb (ix2 (0 : Fin 1) (j 1))) = _
    refine congrArg (V c main_v31) (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  rw [h0, h1, h2]
  rfl

/-- An index of the output is in point t's block iff each coordinate is in the block's range. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v48).slice (win1_3.rect t)).set ↔ _
  rw [View.set_slice_whole, Rect.mem_set_unit]
  exact Iff.rfl

/-- Row r of the output is in the block of the point whose row block is r / 5000. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After the region its output array is the pass over the three arrays it found. -/
theorem final (c : Dev nD) : (dat1 V c).arrAt 3 cfg1.N = rowPass (V c main_v47) (V c main_v30) (V c main_v31) :=
  (dat1 V c).arrAt_eq_of_cover 3 _ (fun t _ => flushed V c t) cover

end Cert.Gcn.Pass1

end
-- ==== Proof.Pass3.lean ====
import proofs.«156466_j11802570130223_1_alg».proof.Proof.Gen.KernelIdeal.Frame
import proofs.«156466_j11802570130223_1_alg».proof.Proof.BiasSlopePoint
import Idealize.ShloMosaic.Lib.Pipeline.Value

/-! # The second bias-and-slope region writes the whole pass

The region's grid has ten points; point t reads rows 5000·t … 5000·t + 4999 of the aggregated features and the
whole bias row and slope row, and writes the same rows of the output. Its stored block at (p, q) is the pass's
entry from the aggregated feature at (5000·t + p, q), the bias at (0, q) and the slope at (0, q): block t of the
pass over the whole arrays. The ten blocks tile the output, so after the region the output array IS the pass of
the three arrays as the region found them. -/

set_option maxRecDepth 16384

noncomputable section

namespace Cert.Gcn.Pass3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the aggregated features' block moves with the output's along the rows, the two rows
    stay, nothing moves along the columns. -/
theorem idx_facts : ∀ t : Fin cfg3.N, win3_0.index t (0 : Fin 2) = win3_3.index t (0 : Fin 2)
    ∧ win3_0.index t (1 : Fin 2) = 0 ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 9 :=
  (by decide +kernel : ∀ t : Fin grid3.N, _)

/-- Every one of the ten row blocks is some point's. -/
theorem idx_onto : ∀ q0 : Fin 10, ∃ t : Fin cfg3.N, win3_3.index t = ![q0.val, 0] :=
  (by decide +kernel : ∀ q0 : Fin 10, ∃ t : Fin grid3.N, win3_3.index t = ![q0.val, 0])

/-- What point t writes back is block t of the pass over the three arrays. -/
theorem flushed (c : Dev nD) (t : Fin cfg3.N) :
    (dat3 V c).flushed 3 t = ((cfg3.win 3).blk t).view.read (Elt Ideal) (rowPass (V c main_v62) (V c main_v32) (V c main_v33)) := by
  show (cfg3.win 3).cut (grid3.coords t) ((dat3 V c).after 3 t) = _
  rw [after3_3]
  unfold out3_3
  rw [View.canon_unit_zero hz]
  simp only [View.ld_unit_zero (S := S5000x128) hz, View.ld_unit_zero (S := S1x128) hz]
  obtain ⟨e0, e1, e2, e3, e4, e5, e6, e7⟩ := idx_facts t
  funext j
  show k3_pay1 (iblk3 V c 0 t) (iblk3 V c 1 t) (iblk3 V c 2 t) j
    = rowPass (V c main_v62) (V c main_v32) (V c main_v33) (((cfg3.win 3).blk t).view.emb j)
  refine (pay3_apply _ _ _ j).trans ?_
  have h0 : iblk3 V c 0 t j = V c main_v62 (((cfg3.win 3).blk t).view.emb j) := by
    show V c main_v62 (((cfg3.win 0).blk t).view.emb j) = _
    refine congrArg (V c main_v62) (funext fun a => Fin.ext ?_)
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * (j 1).val = win3_3.index t (1 : Fin 2) * 128 + 1 * (j 1).val; omega
  have h1 : iblk3 V c 1 t (ix2 (0 : Fin 1) (j 1)) = V c main_v32 (ix2 (0 : Fin 1) ((((cfg3.win 3).blk t).view.emb j) 1)) := by
    show V c main_v32 (((cfg3.win 1).blk t).view.emb (ix2 (0 : Fin 1) (j 1))) = _
    refine congrArg (V c main_v32) (funext fun a => Fin.ext ?_)
    match a with
    | ⟨0, _⟩ => show win3_1.index t (0 : Fin 2) * 1 + 1 * 0 = 0; omega
    | ⟨1, _⟩ => show win3_1.index t (1 : Fin 2) * 128 + 1 * (j 1).val = win3_3.index t (1 : Fin 2) * 128 + 1 * (j 1).val; omega
  have h2 : iblk3 V c 2 t (ix2 (0 : Fin 1) (j 1)) = V c main_v33 (ix2 (0 : Fin 1) ((((cfg3.win 3).blk t).view.emb j) 1)) := by
    show V c main_v33 (((cfg3.win 2).blk t).view.emb (ix2 (0 : Fin 1) (j 1))) = _
    refine congrArg (V c main_v33) (funext fun a => Fin.ext ?_)
    match a with
    | ⟨0, _⟩ => show win3_2.index t (0 : Fin 2) * 1 + 1 * 0 = 0; omega
    | ⟨1, _⟩ => show win3_2.index t (1 : Fin 2) * 128 + 1 * (j 1).val = win3_3.index t (1 : Fin 2) * 128 + 1 * (j 1).val; omega
  rw [h0, h1, h2]
  rfl

/-- An index of the output is in point t's block iff each coordinate is in the block's range. -/
theorem mem_blk (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v63).slice (win3_3.rect t)).set ↔ _
  rw [View.set_slice_whole, Rect.mem_set_unit]
  exact Iff.rfl

/-- Row r of the output is in the block of the point whose row block is r / 5000. -/
theorem cover (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ := idx_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- After the region its output array is the pass over the three arrays it found. -/
theorem final (c : Dev nD) : (dat3 V c).arrAt 3 cfg3.N = rowPass (V c main_v62) (V c main_v32) (V c main_v33) :=
  (dat3 V c).arrAt_eq_of_cover 3 _ (fun t _ => flushed V c t) cover

end Cert.Gcn.Pass3

end
-- ==== Proof.Fold.lean ====
import proofs.«156466_j11802570130223_1_alg».proof.Proof.Gen.KernelIdeal.Frame
import proofs.«156466_j11802570130223_1_alg».proof.Proof.HostStretches
import proofs.«156466_j11802570130223_1_alg».proof.Proof.Product0
import proofs.«156466_j11802570130223_1_alg».proof.Proof.Product2
import proofs.«156466_j11802570130223_1_alg».proof.Proof.Pass1
import proofs.«156466_j11802570130223_1_alg».proof.Proof.Pass3

/-! # The buffer contents at each boundary of the kernel program, named

The kernel program's run is a fold of buffer contents through nine segments. Walking forward from the launch memory:
after the three opening host stretches the edge slots' sources, targets and weights and the four one-row matrices are
the specification's functions of the arguments; the first product region leaves x · W1; the next stretch its
aggregation; the first pass region the first layer; the second product region that layer times W2; the next stretch
its aggregation; the last pass region the network. A buffer that a segment does not write keeps its contents through
it, which is how the edge data computed once at the start reach both aggregations. -/

set_option maxRecDepth 16384

noncomputable section

namespace Cert.Gcn.Fold

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- A host stretch leaves a buffer alone when none of its operations writes it. -/
macro "host_keeps" : tactic => `(tactic| (
  refine StableHlo.after_of_forall_not_mem _ _ (List.forall_iff_forall_mem.mp (by
    simp only [hostOps0, hostOps0_1, hostOps0_2, hostOps1, hostOps3, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide)))))

/-! ## After the first stretch -/

theorem w1_rows : W1 m ρ c (Proc.devRef .tc main_v3) = (Cert.Gcn.rows (F := Ideal) (m ((c : Thread nD τ).loc main_arg1))) := Host.s0_rows (W0 m ρ c)
theorem w1_cols : W1 m ρ c (Proc.devRef .tc main_v6) = (Cert.Gcn.cols (F := Ideal) (m ((c : Thread nD τ).loc main_arg1))) := Host.s0_cols (W0 m ρ c)
theorem w1_pos : W1 m ρ c (Proc.devRef .tc main_v12) = Cert.Gcn.posDeg (F := Ideal) (Cert.Gcn.cols (F := Ideal) (m ((c : Thread nD τ).loc main_arg1))) := Host.s0_pos (W0 m ρ c)
theorem w1_rsq : W1 m ρ c (Proc.devRef .tc main_v13) = (Host.rsqrt (F := Ideal) (s := Cert.ReferenceIdeal.S50000) (φ := .f32) (Cert.Gcn.deg (F := Ideal) (Cert.Gcn.cols (F := Ideal) (m ((c : Thread nD τ).loc main_arg1)))) : (⟨Cert.ReferenceIdeal.S50000, .f32⟩ : BufTy).Contents (Elt Ideal)) := Host.s0_rsq (W0 m ρ c)
theorem w1_zero : W1 m ρ c (Proc.devRef .tc main_cst_2) = constant (F := Ideal) Cert.ReferenceIdeal.S_ .f32 0x00000000#32 := Host.s0_zero (W0 m ρ c)

/-! ## After the selection -/

theorem w2_dinv : W2 m ρ c (Proc.devRef .tc main_v14) = Cert.Gcn.dinv (F := Ideal) (Cert.Gcn.cols (F := Ideal) (m ((c : Thread nD τ).loc main_arg1))) := by
  refine (Host.s1_pick (W1 m ρ c)).trans ?_
  rw [w1_pos m ρ c, w1_rsq m ρ c, w1_zero m ρ c]
  rfl
theorem w2_rows : W2 m ρ c (Proc.devRef .tc main_v3) = (Cert.Gcn.rows (F := Ideal) (m ((c : Thread nD τ).loc main_arg1))) := (by host_keeps : W2 m ρ c (Proc.devRef .tc main_v3) = W1 m ρ c (Proc.devRef .tc main_v3)).trans (w1_rows m ρ c)
theorem w2_cols : W2 m ρ c (Proc.devRef .tc main_v6) = (Cert.Gcn.cols (F := Ideal) (m ((c : Thread nD τ).loc main_arg1))) := (by host_keeps : W2 m ρ c (Proc.devRef .tc main_v6) = W1 m ρ c (Proc.devRef .tc main_v6)).trans (w1_cols m ρ c)

/-! ## At the first product region's entry -/

theorem w3_norm : W3 m ρ c (Proc.devRef .tc main_v29) = (Cert.Gcn.norm (F := Ideal) (Cert.Gcn.rows (F := Ideal) (m ((c : Thread nD τ).loc main_arg1))) (Cert.Gcn.cols (F := Ideal) (m ((c : Thread nD τ).loc main_arg1)))) := by
  refine (Host.s2_norm (W2 m ρ c)).trans ?_
  rw [w2_dinv m ρ c, w2_rows m ρ c, w2_cols m ρ c]
  rfl
theorem w3_rows : W3 m ρ c (Proc.devRef .tc main_v3) = (Cert.Gcn.rows (F := Ideal) (m ((c : Thread nD τ).loc main_arg1))) := (by host_keeps : W3 m ρ c (Proc.devRef .tc main_v3) = W2 m ρ c (Proc.devRef .tc main_v3)).trans (w2_rows m ρ c)
theorem w3_cols : W3 m ρ c (Proc.devRef .tc main_v6) = (Cert.Gcn.cols (F := Ideal) (m ((c : Thread nD τ).loc main_arg1))) := (by host_keeps : W3 m ρ c (Proc.devRef .tc main_v6) = W2 m ρ c (Proc.devRef .tc main_v6)).trans (w2_cols m ρ c)
theorem w3_b1 : W3 m ρ c (Proc.devRef .tc main_v30) = (shapeCast Cert.KernelIdeal.S1x128 (m ((c : Thread nD τ).loc main_arg3)) Cert.KernelIdeal.Facts₀.shapeCasts_S128_S1x128) :=
  (Host.s2_b1 (W2 m ρ c)).trans (congrArg (fun v => (shapeCast Cert.KernelIdeal.S1x128 v Cert.KernelIdeal.Facts₀.shapeCasts_S128_S1x128)) (((by host_keeps : W2 m ρ c (Proc.devRef .tc main_arg3) = W1 m ρ c (Proc.devRef .tc main_arg3)).trans (by host_keeps : W1 m ρ c (Proc.devRef .tc main_arg3) = W0 m ρ c (Proc.devRef .tc main_arg3))).trans rfl))
theorem w3_a1 : W3 m ρ c (Proc.devRef .tc main_v31) = (shapeCast Cert.KernelIdeal.S1x128 (m ((c : Thread nD τ).loc main_arg4)) Cert.KernelIdeal.Facts₀.shapeCasts_S128_S1x128) :=
  (Host.s2_a1 (W2 m ρ c)).trans (congrArg (fun v => (shapeCast Cert.KernelIdeal.S1x128 v Cert.KernelIdeal.Facts₀.shapeCasts_S128_S1x128)) (((by host_keeps : W2 m ρ c (Proc.devRef .tc main_arg4) = W1 m ρ c (Proc.devRef .tc main_arg4)).trans (by host_keeps : W1 m ρ c (Proc.devRef .tc main_arg4) = W0 m ρ c (Proc.devRef .tc main_arg4))).trans rfl))
theorem w3_b2 : W3 m ρ c (Proc.devRef .tc main_v32) = (shapeCast Cert.KernelIdeal.S1x128 (m ((c : Thread nD τ).loc main_arg6)) Cert.KernelIdeal.Facts₀.shapeCasts_S128_S1x128) :=
  (Host.s2_b2 (W2 m ρ c)).trans (congrArg (fun v => (shapeCast Cert.KernelIdeal.S1x128 v Cert.KernelIdeal.Facts₀.shapeCasts_S128_S1x128)) (((by host_keeps : W2 m ρ c (Proc.devRef .tc main_arg6) = W1 m ρ c (Proc.devRef .tc main_arg6)).trans (by host_keeps : W1 m ρ c (Proc.devRef .tc main_arg6) = W0 m ρ c (Proc.devRef .tc main_arg6))).trans rfl))
theorem w3_a2 : W3 m ρ c (Proc.devRef .tc main_v33) = (shapeCast Cert.KernelIdeal.S1x128 (m ((c : Thread nD τ).loc main_arg7)) Cert.KernelIdeal.Facts₀.shapeCasts_S128_S1x128) :=
  (Host.s2_a2 (W2 m ρ c)).trans (congrArg (fun v => (shapeCast Cert.KernelIdeal.S1x128 v Cert.KernelIdeal.Facts₀.shapeCasts_S128_S1x128)) (((by host_keeps : W2 m ρ c (Proc.devRef .tc main_arg7) = W1 m ρ c (Proc.devRef .tc main_arg7)).trans (by host_keeps : W1 m ρ c (Proc.devRef .tc main_arg7) = W0 m ρ c (Proc.devRef .tc main_arg7))).trans rfl))
theorem w3_x : W3 m ρ c (Proc.devRef .tc main_arg0) = (m ((c : Thread nD τ).loc main_arg0)) := (((by host_keeps : W3 m ρ c (Proc.devRef .tc main_arg0) = W2 m ρ c (Proc.devRef .tc main_arg0)).trans ((by host_keeps : W2 m ρ c (Proc.devRef .tc main_arg0) = W1 m ρ c (Proc.devRef .tc main_arg0)).trans (by host_keeps : W1 m ρ c (Proc.devRef .tc main_arg0) = W0 m ρ c (Proc.devRef .tc main_arg0)))).trans rfl)
theorem w3_W1 : W3 m ρ c (Proc.devRef .tc main_arg2) = (m ((c : Thread nD τ).loc main_arg2)) := (((by host_keeps : W3 m ρ c (Proc.devRef .tc main_arg2) = W2 m ρ c (Proc.devRef .tc main_arg2)).trans ((by host_keeps : W2 m ρ c (Proc.devRef .tc main_arg2) = W1 m ρ c (Proc.devRef .tc main_arg2)).trans (by host_keeps : W1 m ρ c (Proc.devRef .tc main_arg2) = W0 m ρ c (Proc.devRef .tc main_arg2)))).trans rfl)

/-! ## After the first product region -/

theorem w4_h : W4 m ρ c (Proc.devRef .tc main_v34) = (Cert.Gcn.times (F := Ideal) (m ((c : Thread nD τ).loc main_arg0)) (m ((c : Thread nD τ).loc main_arg2))) :=
  (W4_arr m ρ c 2).trans ((Product0.final (V3 m ρ) c).trans (congrArg₂ (Cert.Gcn.times (F := Ideal)) (w3_x m ρ c) (w3_W1 m ρ c)))
theorem w4_rows : W4 m ρ c (Proc.devRef .tc main_v3) = (Cert.Gcn.rows (F := Ideal) (m ((c : Thread nD τ).loc main_arg1))) := (W4_of_ne m ρ c main_v3 (by decide)).trans (w3_rows m ρ c)
theorem w4_cols : W4 m ρ c (Proc.devRef .tc main_v6) = (Cert.Gcn.cols (F := Ideal) (m ((c : Thread nD τ).loc main_arg1))) := (W4_of_ne m ρ c main_v6 (by decide)).trans (w3_cols m ρ c)
theorem w4_norm : W4 m ρ c (Proc.devRef .tc main_v29) = (Cert.Gcn.norm (F := Ideal) (Cert.Gcn.rows (F := Ideal) (m ((c : Thread nD τ).loc main_arg1))) (Cert.Gcn.cols (F := Ideal) (m ((c : Thread nD τ).loc main_arg1)))) := (W4_of_ne m ρ c main_v29 (by decide)).trans (w3_norm m ρ c)

/-! ## At the first pass region's entry -/

theorem w5_agg : W5 m ρ c (Proc.devRef .tc main_v47) = (Cert.Gcn.agg (F := Ideal) (Cert.Gcn.times (F := Ideal) (m ((c : Thread nD τ).loc main_arg0)) (m ((c : Thread nD τ).loc main_arg2))) (Cert.Gcn.rows (F := Ideal) (m ((c : Thread nD τ).loc main_arg1))) (Cert.Gcn.cols (F := Ideal) (m ((c : Thread nD τ).loc main_arg1))) (Cert.Gcn.norm (F := Ideal) (Cert.Gcn.rows (F := Ideal) (m ((c : Thread nD τ).loc main_arg1))) (Cert.Gcn.cols (F := Ideal) (m ((c : Thread nD τ).loc main_arg1))))) := by
  refine (Host.s3_agg (W4 m ρ c)).trans ?_
  rw [w4_h m ρ c, w4_rows m ρ c, w4_cols m ρ c, w4_norm m ρ c]
theorem w5_b1 : W5 m ρ c (Proc.devRef .tc main_v30) = (shapeCast Cert.KernelIdeal.S1x128 (m ((c : Thread nD τ).loc main_arg3)) Cert.KernelIdeal.Facts₀.shapeCasts_S128_S1x128) := ((by host_keeps : W5 m ρ c (Proc.devRef .tc main_v30) = W4 m ρ c (Proc.devRef .tc main_v30)).trans (W4_of_ne m ρ c main_v30 (by decide))).trans (w3_b1 m ρ c)
theorem w5_a1 : W5 m ρ c (Proc.devRef .tc main_v31) = (shapeCast Cert.KernelIdeal.S1x128 (m ((c : Thread nD τ).loc main_arg4)) Cert.KernelIdeal.Facts₀.shapeCasts_S128_S1x128) := ((by host_keeps : W5 m ρ c (Proc.devRef .tc main_v31) = W4 m ρ c (Proc.devRef .tc main_v31)).trans (W4_of_ne m ρ c main_v31 (by decide))).trans (w3_a1 m ρ c)

/-! ## After the first pass region: the first layer -/

theorem w6_layer : W6 m ρ c (Proc.devRef .tc main_v48) = (Cert.Gcn.layer (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  refine (W6_arr m ρ c 3).trans ((Pass1.final (V5 m ρ) c).trans ?_)
  show Cert.Gcn.rowPass (W5 m ρ c (Proc.devRef .tc main_v47)) (W5 m ρ c (Proc.devRef .tc main_v30)) (W5 m ρ c (Proc.devRef .tc main_v31)) = _
  rw [w5_agg m ρ c, w5_b1 m ρ c, w5_a1 m ρ c]
  exact Cert.Gcn.rowPass_reshape _ _ _ _
theorem w6_W2 : W6 m ρ c (Proc.devRef .tc main_arg5) = (m ((c : Thread nD τ).loc main_arg5)) := (((W6_of_ne m ρ c main_arg5 (by decide)).trans ((by host_keeps : W5 m ρ c (Proc.devRef .tc main_arg5) = W4 m ρ c (Proc.devRef .tc main_arg5)).trans ((W4_of_ne m ρ c main_arg5 (by decide)).trans ((by host_keeps : W3 m ρ c (Proc.devRef .tc main_arg5) = W2 m ρ c (Proc.devRef .tc main_arg5)).trans ((by host_keeps : W2 m ρ c (Proc.devRef .tc main_arg5) = W1 m ρ c (Proc.devRef .tc main_arg5)).trans (by host_keeps : W1 m ρ c (Proc.devRef .tc main_arg5) = W0 m ρ c (Proc.devRef .tc main_arg5))))))).trans rfl)

/-! ## After the second product region -/

theorem w7_h : W7 m ρ c (Proc.devRef .tc main_v49) = (Cert.Gcn.times (F := Ideal) (Cert.Gcn.layer (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5))) :=
  (W7_arr m ρ c 2).trans ((Product2.final (V6 m ρ) c).trans (congrArg₂ (Cert.Gcn.times (F := Ideal)) (w6_layer m ρ c) (w6_W2 m ρ c)))
theorem w7_rows : W7 m ρ c (Proc.devRef .tc main_v3) = (Cert.Gcn.rows (F := Ideal) (m ((c : Thread nD τ).loc main_arg1))) := ((W7_of_ne m ρ c main_v3 (by decide)).trans ((W6_of_ne m ρ c main_v3 (by decide)).trans ((by host_keeps : W5 m ρ c (Proc.devRef .tc main_v3) = W4 m ρ c (Proc.devRef .tc main_v3)).trans (W4_of_ne m ρ c main_v3 (by decide))))).trans (w3_rows m ρ c)
theorem w7_cols : W7 m ρ c (Proc.devRef .tc main_v6) = (Cert.Gcn.cols (F := Ideal) (m ((c : Thread nD τ).loc main_arg1))) := ((W7_of_ne m ρ c main_v6 (by decide)).trans ((W6_of_ne m ρ c main_v6 (by decide)).trans ((by host_keeps : W5 m ρ c (Proc.devRef .tc main_v6) = W4 m ρ c (Proc.devRef .tc main_v6)).trans (W4_of_ne m ρ c main_v6 (by decide))))).trans (w3_cols m ρ c)
theorem w7_norm : W7 m ρ c (Proc.devRef .tc main_v29) = (Cert.Gcn.norm (F := Ideal) (Cert.Gcn.rows (F := Ideal) (m ((c : Thread nD τ).loc main_arg1))) (Cert.Gcn.cols (F := Ideal) (m ((c : Thread nD τ).loc main_arg1)))) := ((W7_of_ne m ρ c main_v29 (by decide)).trans ((W6_of_ne m ρ c main_v29 (by decide)).trans ((by host_keeps : W5 m ρ c (Proc.devRef .tc main_v29) = W4 m ρ c (Proc.devRef .tc main_v29)).trans (W4_of_ne m ρ c main_v29 (by decide))))).trans (w3_norm m ρ c)

/-! ## At the second pass region's entry -/

theorem w8_agg : W8 m ρ c (Proc.devRef .tc main_v62) = (Cert.Gcn.agg (F := Ideal) (Cert.Gcn.times (F := Ideal) (Cert.Gcn.layer (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5))) (Cert.Gcn.rows (F := Ideal) (m ((c : Thread nD τ).loc main_arg1))) (Cert.Gcn.cols (F := Ideal) (m ((c : Thread nD τ).loc main_arg1))) (Cert.Gcn.norm (F := Ideal) (Cert.Gcn.rows (F := Ideal) (m ((c : Thread nD τ).loc main_arg1))) (Cert.Gcn.cols (F := Ideal) (m ((c : Thread nD τ).loc main_arg1))))) := by
  refine (Host.s4_agg (W7 m ρ c)).trans ?_
  rw [w7_h m ρ c, w7_rows m ρ c, w7_cols m ρ c, w7_norm m ρ c]
theorem w8_b2 : W8 m ρ c (Proc.devRef .tc main_v32) = (shapeCast Cert.KernelIdeal.S1x128 (m ((c : Thread nD τ).loc main_arg6)) Cert.KernelIdeal.Facts₀.shapeCasts_S128_S1x128) := ((by host_keeps : W8 m ρ c (Proc.devRef .tc main_v32) = W7 m ρ c (Proc.devRef .tc main_v32)).trans ((W7_of_ne m ρ c main_v32 (by decide)).trans ((W6_of_ne m ρ c main_v32 (by decide)).trans ((by host_keeps : W5 m ρ c (Proc.devRef .tc main_v32) = W4 m ρ c (Proc.devRef .tc main_v32)).trans (W4_of_ne m ρ c main_v32 (by decide)))))).trans (w3_b2 m ρ c)
theorem w8_a2 : W8 m ρ c (Proc.devRef .tc main_v33) = (shapeCast Cert.KernelIdeal.S1x128 (m ((c : Thread nD τ).loc main_arg7)) Cert.KernelIdeal.Facts₀.shapeCasts_S128_S1x128) := ((by host_keeps : W8 m ρ c (Proc.devRef .tc main_v33) = W7 m ρ c (Proc.devRef .tc main_v33)).trans ((W7_of_ne m ρ c main_v33 (by decide)).trans ((W6_of_ne m ρ c main_v33 (by decide)).trans ((by host_keeps : W5 m ρ c (Proc.devRef .tc main_v33) = W4 m ρ c (Proc.devRef .tc main_v33)).trans (W4_of_ne m ρ c main_v33 (by decide)))))).trans (w3_a2 m ρ c)

/-! ## After the last region: the network -/

/-- The result buffer's final contents are the two-layer network of the argument arrays. -/
theorem w9_net : W9 m ρ c (Proc.devRef .tc main_v63)
    = Cert.Gcn.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W9_arr m ρ c 3).trans ((Pass3.final (V8 m ρ) c).trans ?_)
  show Cert.Gcn.rowPass (W8 m ρ c (Proc.devRef .tc main_v62)) (W8 m ρ c (Proc.devRef .tc main_v32)) (W8 m ρ c (Proc.devRef .tc main_v33)) = _
  rw [w8_agg m ρ c, w8_b2 m ρ c, w8_a2 m ρ c]
  exact Cert.Gcn.rowPass_reshape _ _ _ _

end Cert.Gcn.Fold

end
-- ==== Proof.RefIsNet.lean ====
import proofs.«156466_j11802570130223_1_alg».proof.Proof.Spec
import proofs.«156466_j11802570130223_1_alg».proof.Proof.RefRunP

/-! # The reference program computes the two-layer network

The reference's run ends with its result at the composed term of its host operations. That term is the
two-layer network of the specification: the reference computes the edge slots, the degrees and the weights
once per layer, from the same edge list, so both copies are the specification's one. -/

noncomputable section

namespace Cert.Gcn

open Cert.ReferenceIdeal Idealize.ShloMosaic Idealize.SL.Sem

variable {F : FTy → Type} [FloatOps F]

set_option maxRecDepth 16384 in
/-- The reference's result term is the network of its argument arrays. -/
theorem ref_result (m : (ℓ : Loc nD τ sig) → Buf (Elt F) ℓ) (c : Dev nD) :
    Cert.ReferenceIdeal.ValueP.res_main_v105 m c
      = net (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  unfold Cert.ReferenceIdeal.ValueP.res_main_v105 net layer biasSlope spread times agg norm normOf dinv pick posDeg deg wrap rows cols
  rfl

end Cert.Gcn

end
-- ==== Proof.lean ====
/- Two graph-convolution layers, computed two ways, give the same 50000 × 128 array at the ideal values.

   One layer: multiply the node features by a weight matrix; along every edge (and every node's self loop) send the
   source node's row, scaled by the symmetric degree weight deg(source)^(-1/2) · deg(target)^(-1/2), to the target node
   and add what arrives; add a bias; keep an entry t where t ≥ 0 and put slope · t elsewhere. The network is two such
   layers over one edge list.

   The kernel program does the two matrix products and the two bias-and-slope passes in tiled kernels of ten row blocks
   each, and the edge weights once; the reference does everything on the host and computes the edge weights once per
   layer. The products agree because a row block of the product is the product of that row block (the operands' change of
   float format is the identity at the ideal values, and the zero accumulator adds nothing); the passes agree entry by
   entry; the aggregation and the edge weights are the same host operations in both programs. No step needs the inputs
   to be finite: no sum is regrouped and no factor moved.

   The three frames are the generated frame certificates (the reference's is its run with the result dropped); the kernel
   program's idealization rewrote nothing, so `preserves` is trivial. -/
import proofs.«156466_j11802570130223_1_alg».proof.Defs
import proofs.«156466_j11802570130223_1_alg».proof.Proof.Gen.Kernel
import proofs.«156466_j11802570130223_1_alg».proof.Proof.Gen.Kernel.Skeleton
import proofs.«156466_j11802570130223_1_alg».proof.Proof.Gen.Kernel.Launch
import proofs.«156466_j11802570130223_1_alg».proof.Proof.Gen.Kernel.Points
import proofs.«156466_j11802570130223_1_alg».proof.Proof.Gen.Kernel.Frame
import proofs.«156466_j11802570130223_1_alg».proof.Proof.Gen.KernelIdeal
import proofs.«156466_j11802570130223_1_alg».proof.Proof.Gen.KernelIdeal.Skeleton
import proofs.«156466_j11802570130223_1_alg».proof.Proof.Gen.KernelIdeal.Launch
import proofs.«156466_j11802570130223_1_alg».proof.Proof.Gen.KernelIdeal.Points
import proofs.«156466_j11802570130223_1_alg».proof.Proof.Gen.KernelIdeal.Frame
import proofs.«156466_j11802570130223_1_alg».proof.Proof.Gen.ReferenceIdeal
import proofs.«156466_j11802570130223_1_alg».proof.Proof.Gen.Pre_finite_inputs
import proofs.«156466_j11802570130223_1_alg».proof.Proof.KernelRun
import proofs.«156466_j11802570130223_1_alg».proof.Proof.Fold
import proofs.«156466_j11802570130223_1_alg».proof.Proof.RefRunP
import proofs.«156466_j11802570130223_1_alg».proof.Proof.RefIsNet
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the idealized reference: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the two-layer network of the arguments in their
    result: the kernel program by the fold of its buffer contents through its nine segments, the reference because its
    composed host term is the network. -/
theorem algebraic : Cert.algebraic_KernelIdeal_ReferenceIdeal := by
  intro m ρ m' ρ' _ hagree
  refine ⟨fun c => Cert.Gcn.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c => ⟨(h c).1.trans (Cert.Gcn.Fold.w9_net m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7⟩ := hagree c
    rw [Cert.Gcn.ref_result, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
